-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x16 : Shape := ⟨2, ![3200000, 16]⟩
abbrev S16x16 : Shape := ⟨2, ![16, 16]⟩
abbrev S16 : Shape := ⟨1, ![16]⟩
abbrev S_ : Shape := ⟨0, ![]⟩

class Facts : Prop where
  bcast_S_S3200000x16 : S_.BroadcastsInDim S3200000x16 (![] : Fin 0 → Fin S3200000x16.rank)
  reducesTo_S3200000x16_S_d0_1 : S3200000x16.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S3200000x16 .f32) (main_arg1 : FVec F S16x16 .f32) (main_arg2 : FVec F S16 .f32) (main_arg3 : FVec F S16x16 .f32) (main_arg4 : FVec F S16 .f32) : IVec S_ 1 :=
  let main_v0 : FVec F S3200000x16 .f32 := Host.absf main_arg0
  let main_cst : FVec F S_ .f32 := constant S_ .f32 0x7F800000#32
  let main_v1 : FVec F S3200000x16 .f32 := broadcastInDim S3200000x16 ![] bcast_S_S3200000x16 main_cst
  let main_v2 : IVec S3200000x16 1 := cmpf .olt main_v0 main_v1
  let main_c : IVec S_ 1 := constantI S_ 1 1#1
  let main_v3 : IVec S_ 1 := (fun x v => Host.reduce IntOp.andi x v reducesTo_S3200000x16_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_v13 main_v16
-- ==== Kernel.lean ====
abbrev S3200000x16 : Shape := ⟨2, ![3200000, 16]⟩
abbrev S16x16 : Shape := ⟨2, ![16, 16]⟩
abbrev S16 : Shape := ⟨1, ![16]⟩
abbrev S16x3200000 : Shape := ⟨2, ![16, 3200000]⟩
abbrev S16x1 : Shape := ⟨2, ![16, 1]⟩
abbrev S16x160000 : Shape := ⟨2, ![16, 160000]⟩

abbrev nBuf : Space → Nat
  | .hbm => 12
  | .vmem => 8
  | .smem => 0
  | _ => 0

abbrev bufTy : (tb : Table) → Fin (tcTables nBuf tb) → BufTy
  | .hbm, ⟨0, _⟩ => ⟨S3200000x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x3200000, .f32⟩
  | .hbm, ⟨6, _⟩ => ⟨S16x16, .f32⟩
  | .hbm, ⟨7, _⟩ => ⟨S16x16, .f32⟩
  | .hbm, ⟨8, _⟩ => ⟨S16x1, .f32⟩
  | .hbm, ⟨9, _⟩ => ⟨S16x1, .f32⟩
  | .hbm, ⟨10, _⟩ => ⟨S16x3200000, .f32⟩
  | .hbm, ⟨11, _⟩ => ⟨S3200000x16, .f32⟩
  | .local _ .vmem, ⟨0, _⟩ => ⟨S16x160000, .f32⟩
  | .local _ .vmem, ⟨1, _⟩ => ⟨S16x160000, .f32⟩
  | .local _ .vmem, ⟨2, _⟩ => ⟨S16x16, .f32⟩
  | .local _ .vmem, ⟨3, _⟩ => ⟨S16x1, .f32⟩
  | .local _ .vmem, ⟨4, _⟩ => ⟨S16x16, .f32⟩
  | .local _ .vmem, ⟨5, _⟩ => ⟨S16x1, .f32⟩
  | .local _ .vmem, ⟨6, _⟩ => ⟨S16x160000, .f32⟩
  | .local _ .vmem, ⟨7, _⟩ => ⟨S16x160000, .f32⟩
  | _, _ => ⟨S3200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x160000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S3200000x16_S16x3200000_1_0 : S3200000x16.Transposes [1, 0] S16x3200000
  transposes_S16x16_S16x16_1_0 : S16x16.Transposes [1, 0] S16x16
  shapeCasts_S16_S16x1 : S16.ShapeCasts S16x1
  inb_S16x160000_S16x160000_0_0 : ∀ a, (![0, 0] : Fin 2 → Nat) a + S16x160000.size a ≤ S16x160000.size a
  h_S16x160000 : 0 < S16x160000.numel
  shapeCasts_S16x160000_S16x160000 : S16x160000.ShapeCasts S16x160000
  inb_S16x16_S16x16_0_0 : ∀ a, (![0, 0] : Fin 2 → Nat) a + S16x16.size a ≤ S16x16.size a
  h_S16x16 : 0 < S16x16.numel
  shapeCasts_S16x16_S16x16 : S16x16.ShapeCasts S16x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x160000 : S16x1.Broadcasts S16x160000
  transposes_S16x3200000_S3200000x16_1_0 : S16x3200000.Transposes [1, 0] S3200000x16
  dot_S16x16_S16x160000_S16x160000_1_0_0_1_n_n_wf : DotDims.WF S16x16 S16x160000 S16x160000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x160000.size a ≤ S16x3200000.size a
  hwx0_0 : ∀ i : grid0.Coords, EltTy.bits .f32 = 32 ∨ (Rect.block (s := S16x3200000) S16x160000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x160000.size a ≤ S16x3200000.size a
  hwx0_5 : ∀ i : grid0.Coords, EltTy.bits .f32 = 32 ∨ (Rect.block (s := S16x3200000) S16x160000.size (cc0_transform_5 i) (hinb0_5 i)).WholeWords (EltTy.packing .f32)

variable [Facts₀]

def dot_S16x16_S16x160000_S16x160000_1_0_0_1_n_n : DotDims S16x16 S16x160000 S16x160000 where
  lhsContracting := [1]
  rhsContracting := [0]
  lhsNonContracting := [0]
  rhsNonContracting := [1]
  lhsBatch := []
  rhsBatch := []
  wf := dot_S16x16_S16x160000_S16x160000_1_0_0_1_n_n_wf

abbrev win0_0 : Pipeline.Window sig grid0 :=
  Pipeline.Window.ofSpec (Memref.whole main_v0) S16x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x160000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S3200000x16 : Shape := ⟨2, ![3200000, 16]⟩
abbrev S16x16 : Shape := ⟨2, ![16, 16]⟩
abbrev S16 : Shape := ⟨1, ![16]⟩
abbrev S1x16 : Shape := ⟨2, ![1, 16]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S3200000x16, .f32⟩
  | .hbm, ⟨1, _⟩ => ⟨S16x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S3200000x16, .f32⟩
  | .hbm, ⟨6, _⟩ => ⟨S1x16, .f32⟩
  | .hbm, ⟨7, _⟩ => ⟨S3200000x16, .f32⟩
  | .hbm, ⟨8, _⟩ => ⟨S3200000x16, .f32⟩
  | .hbm, ⟨9, _⟩ => ⟨S_, .f32⟩
  | .hbm, ⟨10, _⟩ => ⟨S3200000x16, .f32⟩
  | .hbm, ⟨11, _⟩ => ⟨S3200000x16, .f32⟩
  | .hbm, ⟨12, _⟩ => ⟨S3200000x16, .f32⟩
  | .hbm, ⟨13, _⟩ => ⟨S1x16, .f32⟩
  | .hbm, ⟨14, _⟩ => ⟨S3200000x16, .f32⟩
  | .hbm, ⟨15, _⟩ => ⟨S3200000x16, .f32⟩
  | .hbm, ⟨16, _⟩ => ⟨S_, .f32⟩
  | .hbm, ⟨17, _⟩ => ⟨S3200000x16, .f32⟩
  | .hbm, ⟨18, _⟩ => ⟨S3200000x16, .f32⟩
  | _, _ => ⟨S3200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  dot_S3200000x16_S16x16_S3200000x16_1_0_0_1_n_n_wf : DotDims.WF S3200000x16 S16x16 S3200000x16 [1] [0] [0] [1] [] []

variable [Facts₀]

def dot_S3200000x16_S16x16_S3200000x16_1_0_0_1_n_n : DotDims S3200000x16 S16x16 S3200000x16 where
  lhsContracting := [1]
  rhsContracting := [0]
  lhsNonContracting := [0]
  rhsNonContracting := [1]
  lhsBatch := []
  rhsBatch := []
  wf := dot_S3200000x16_S16x16_S3200000x16_1_0_0_1_n_n_wf

class Facts : Prop extends Facts₀ where

variable [Facts]
-- ==== Proof.Spec.lean ====
/-
  A two-layer perceptron with rectifiers, applied to every row of a feature matrix.

  For a row e of x (3200000 rows of 16 features), weights W1, W2 (16 × 16) and biases b1, b2 (length 16):
      hidden e k = max (∑ l, x (e, l) · W1 (l, k) + b1 k) 0
      mlp (e, j) = max (∑ k, hidden e k · W2 (k, j) + b2 j) 0
  over the extended reals. The same numbers can be computed column-wise: with the weights on the left of each
  product, W2 (k, j) · max (∑ l, W1 (l, k) · x (e, l) + b1 k) 0. The two arrangements differ only in the order of
  the two factors of each product, so they agree on every extended real (commutativity of the product; no
  distributivity, hence no finiteness, is involved).
-/
import Idealize.ShloMosaic.PureOps.Ideal
import Idealize.ShloMosaic.Lib.ValueIdx

noncomputable section

namespace Cert.Mlp

open Idealize.ShloMosaic Idealize.ShloMosaic.ValueIdx

/-- Entry k of the hidden layer on row e: the rectified affine image of the row under W1, b1. -/
def hidden (x : (⟨2, ![3200000, 16]⟩ : Shape).Idx → EReal) (W1 : (⟨2, ![16, 16]⟩ : Shape).Idx → EReal)
    (b1 : (⟨1, ![16]⟩ : Shape).Idx → EReal) (e : Fin 3200000) (k : Fin 16) : EReal :=
  max ((∑ l : Fin 16, x (ix2 e l) * W1 (ix2 l k)) + b1 (ix1 k)) 0

/-- The perceptron's output, index by index: the rectified affine image of the hidden layer under W2, b2. -/
def mlp (x : (⟨2, ![3200000, 16]⟩ : Shape).Idx → EReal) (W1 : (⟨2, ![16, 16]⟩ : Shape).Idx → EReal)
    (b1 : (⟨1, ![16]⟩ : Shape).Idx → EReal) (W2 : (⟨2, ![16, 16]⟩ : Shape).Idx → EReal)
    (b2 : (⟨1, ![16]⟩ : Shape).Idx → EReal) : (⟨2, ![3200000, 16]⟩ : Shape).Idx → EReal := fun i =>
  max ((∑ k : Fin 16, hidden x W1 b1 (i 0) k * W2 (ix2 k (i 1))) + b2 (ix1 (i 1))) 0

/-- The column-wise arrangement (weights on the left of each product) is the perceptron: each product's factors are
    swapped, nothing else. -/
theorem mlp_columnwise (x : (⟨2, ![3200000, 16]⟩ : Shape).Idx → EReal) (W1 : (⟨2, ![16, 16]⟩ : Shape).Idx → EReal)
    (b1 : (⟨1, ![16]⟩ : Shape).Idx → EReal) (W2 : (⟨2, ![16, 16]⟩ : Shape).Idx → EReal)
    (b2 : (⟨1, ![16]⟩ : Shape).Idx → EReal) (e : Fin 3200000) (j : Fin 16) :
    max ((∑ k : Fin 16, W2 (ix2 k j) * max ((∑ l : Fin 16, W1 (ix2 l k) * x (ix2 e l)) + b1 (ix1 k)) 0) + b2 (ix1 j)) 0
      = mlp x W1 b1 W2 b2 (ix2 e j) := by
  have inner : ∀ k : Fin 16, (∑ l : Fin 16, W1 (ix2 l k) * x (ix2 e l)) = ∑ l : Fin 16, x (ix2 e l) * W1 (ix2 l k) :=
    fun k => Finset.sum_congr rfl fun l _ => mul_comm _ _
  have outer : (∑ k : Fin 16, W2 (ix2 k j) * max ((∑ l : Fin 16, W1 (ix2 l k) * x (ix2 e l)) + b1 (ix1 k)) 0)
      = ∑ k : Fin 16, hidden x W1 b1 e k * W2 (ix2 k j) :=
    Finset.sum_congr rfl fun k _ => by rw [inner k, mul_comm]; rfl
  rw [outer]
  rfl

end Cert.Mlp

end
-- ==== Proof.RefIsSpec.lean ====
/-
  The reference program computes the perceptron.

  Stage by stage the reference forms x · W1 (a contraction over the 16 features), adds b1 along each row, rectifies,
  forms the product with W2, adds b2, rectifies. Read at an index (e, j) the last stage is therefore
      max (∑ k, max (∑ l, x (e, l) · W1 (l, k) + b1 k) 0 · W2 (k, j) + b2 j) 0,
  which is the specification's mlp at (e, j) once the composed index maps of the stages are written in coordinates
  and the zero literal is read as the extended real 0.
-/
import proofs.«170061_g52252572123261_cont_8to1_c_723_17_alg».proof.Proof.Gen.ReferenceIdeal.Read
import proofs.«170061_g52252572123261_cont_8to1_c_723_17_alg».proof.Proof.Spec
import Idealize.ShloMosaic.PureOps.Ideal.Laws

noncomputable section

namespace Cert.Mlp.Ref

open Cert.ReferenceIdeal Cert.ReferenceIdeal.Read Idealize.ShloMosaic Idealize.ShloMosaic.ValueIdx

/-- Row e of x meets column k of W1 along the contracted axis: the left operand's index in the first product. -/
theorem lhs_first (e : Fin 3200000) (j k l : Fin 16) : lidx_main_v0 (lidx_main_v5 (ix2 e j) k) l = ix2 e l :=
  funext fun a => Fin.ext (by match a with | ⟨0, _⟩ => rfl | ⟨1, _⟩ => rfl)

/-- The right operand's index in the first product. -/
theorem rhs_first (e : Fin 3200000) (j k l : Fin 16) : ridx_main_v0 (lidx_main_v5 (ix2 e j) k) l = ix2 l k :=
  funext fun a => Fin.ext (by match a with | ⟨0, _⟩ => rfl | ⟨1, _⟩ => rfl)

/-- The first bias, broadcast along the rows, is read at the hidden unit. -/
theorem bias_first (e : Fin 3200000) (j k : Fin 16) : idx_main_v1 (idx_main_v2 (lidx_main_v5 (ix2 e j) k)) = ix1 k :=
  funext fun a => Fin.ext (by match a with | ⟨0, _⟩ => rfl)

/-- The right operand's index in the second product. -/
theorem rhs_second (e : Fin 3200000) (j k : Fin 16) : ridx_main_v5 (ix2 e j) k = ix2 k j :=
  funext fun a => Fin.ext (by match a with | ⟨0, _⟩ => rfl | ⟨1, _⟩ => rfl)

/-- The second bias is read at the output column. -/
theorem bias_second (e : Fin 3200000) (j : Fin 16) : idx_main_v6 (idx_main_v7 (ix2 e j)) = ix1 j :=
  funext fun a => Fin.ext (by match a with | ⟨0, _⟩ => rfl)

/-- The reference's last stage is the perceptron of its five arguments. -/
theorem last_stage_eq (x0 : (⟨S3200000x16, .f32⟩ : BufTy).Contents (Elt Ideal)) (x1 : (⟨S16x16, .f32⟩ : BufTy).Contents (Elt Ideal))
    (x2 : (⟨S16, .f32⟩ : BufTy).Contents (Elt Ideal)) (x3 : (⟨S16x16, .f32⟩ : BufTy).Contents (Elt Ideal))
    (x4 : (⟨S16, .f32⟩ : BufTy).Contents (Elt Ideal)) :
    val_main_v9 (F := Ideal) x0 x1 x2 x3 x4 = Cert.Mlp.mlp x0 x1 x2 x3 x4 := by
  funext i
  obtain ⟨e, j, rfl⟩ : ∃ (e : Fin 3200000) (j : Fin 16), i = ix2 e j := ⟨i 0, i 1, eq_ix2 i⟩
  simp only [val_main_v9_apply, val_main_v8_apply, val_main_v5_apply, val_main_v4_apply, val_main_v3_apply,
    val_main_v0_apply, val_main_v2_apply, val_main_v1_apply, val_main_v7_apply, val_main_v6_apply,
    val_main_call0_v0_apply, val_main_call0_cst_apply, val_main_call1_v0_apply, val_main_call1_cst_apply,
    lhs_first, rhs_first, bias_first, rhs_second, bias_second]
  have zero : (FloatOps.ofBits (F := Ideal) FTy.f32 0x00000000#32) = (0 : EReal) := Ideal.ofBits_zero_f32
  rw [zero]
  rfl

end Cert.Mlp.Ref

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.Payload.lean ====
/-
  What the kernel body computes on one block, entry by entry.

  On a block of 160000 columns the body holds the transposed features X (16 × 160000), the transposed weights A1, A2
  (16 × 16) and the biases as columns c1, c2 (16 × 1). It forms A1 · X accumulated into zero, adds c1 along each row,
  rectifies, forms A2 times that, adds c2, rectifies. At the entry (j, q) this is
      max (∑ k, A2 (j, k) · max (∑ l, A1 (k, l) · X (l, q) + c1 (k, 0)) 0 + c2 (j, 0)) 0:
  a matrix product accumulated into the zero matrix is the plain sum over the contracted index, a column broadcast
  along a row reads the column's entry of that row, and the casts of a value to its own shape change nothing.
-/
import proofs.«170061_g52252572123261_cont_8to1_c_723_17_alg».proof.Proof.Gen.KernelIdeal.Skeleton
import proofs.«170061_g52252572123261_cont_8to1_c_723_17_alg».proof.Proof.LibKeepdims
import Idealize.ShloMosaic.Lib.Pipeline.Value
import Idealize.ShloMosaic.Lib.ValueIdx
import Idealize.ShloMosaic.PureOps.Ideal.Laws

noncomputable section

namespace Cert.Mlp.Body

open Cert.KernelIdeal Cert.KernelIdeal.Gen Idealize.ShloMosaic Idealize.ShloMosaic.ValueIdx

/-- The contraction of a 16 × 16 matrix with a 16 × 160000 block along the shared axis of extent 16. -/
abbrev dims : DotDims S16x16 S16x160000 S16x160000 := dot_S16x16_S16x160000_S16x160000_1_0_0_1_n_n

/-- The left operand is read in the output's row ... -/
theorem lhs_row (i : S16x160000.Idx) (r : dims.contr.Idx) : (dims.lhsIdx i r 0).val = (i 0).val := by
  unfold DotDims.lhsIdx
  rw [dif_neg (show ¬(0 : Fin S16x16.rank) ∈ dims.lhsBatch by decide), dif_pos (show (0 : Fin S16x16.rank) ∈ dims.lhsNonContracting by decide)]
  rfl
/-- ... at the contracted index, -/
theorem lhs_col (i : S16x160000.Idx) (r : dims.contr.Idx) : (dims.lhsIdx i r 1).val = (r ⟨0, by decide⟩).val :=
  dims.lhsIdx_val_of_single rfl i r
/-- and the right operand at the contracted index ... -/
theorem rhs_row (i : S16x160000.Idx) (r : dims.contr.Idx) : (dims.rhsIdx i r 0).val = (r ⟨0, by decide⟩).val :=
  dims.rhsIdx_val_of_single rfl i r
/-- ... in the output's column. -/
theorem rhs_col (i : S16x160000.Idx) (r : dims.contr.Idx) : (dims.rhsIdx i r 1).val = (i 1).val := by
  unfold DotDims.rhsIdx
  rw [dif_neg (show ¬(1 : Fin S16x160000.rank) ∈ dims.rhsBatch by decide), dif_pos (show (1 : Fin S16x160000.rank) ∈ dims.rhsNonContracting by decide)]
  rfl

/-- A matrix product accumulated into the zero matrix, at the entry (j, q): the sum over k of A (j, k) · B (k, q). -/
theorem product_apply (A : FVec Ideal S16x16 .f32) (B : FVec Ideal S16x160000 .f32) (j : Fin 16) (q : Fin 160000) :
    matmul dims none A B (constant (F := Ideal) S16x160000 .f32 0x00000000#32) (ix2 j q) = ∑ k : Fin 16, A (ix2 j k) * B (ix2 k q) := by
  simp only [matmul]
  rw [Ideal.matmul_constant_zero_apply, ← Equiv.sum_comp (contrEquiv1 dims 16 rfl rfl).symm]
  refine Finset.sum_congr rfl fun k _ => ?_
  have hk := contrEquiv1_symm_val dims 16 rfl rfl k
  have el : dims.lhsIdx (ix2 j q) ((contrEquiv1 dims 16 rfl rfl).symm k) = ix2 j k := funext fun a => Fin.ext (by
    match a with
    | ⟨0, _⟩ => exact lhs_row _ _
    | ⟨1, _⟩ => exact (lhs_col _ _).trans hk)
  have er : dims.rhsIdx (ix2 j q) ((contrEquiv1 dims 16 rfl rfl).symm k) = ix2 k q := funext fun a => Fin.ext (by
    match a with
    | ⟨0, _⟩ => exact (rhs_row _ _).trans hk
    | ⟨1, _⟩ => exact rhs_col _ _)
  rw [el, er]

/-- One rectified affine layer in the body's arrangement, at the entry (j, q): the product with the weights,
    the bias column broadcast along the row, the maximum with the zero scalar broadcast everywhere. -/
theorem layer_apply (A : FVec Ideal S16x16 .f32) (B : FVec Ideal S16x160000 .f32) (col : FVec Ideal S16x1 .f32)
    (j : Fin 16) (q : Fin 160000) :
    maximumf (addf (matmul dims none A B (constant (F := Ideal) S16x160000 .f32 0x00000000#32))
        (broadcastTo S16x160000 col broadcasts_S16x1_S16x160000))
      (broadcast S16x160000 (Scalar.ofBits (F := Ideal) .f32 0x00000000#32)) (ix2 j q)
      = max ((∑ k : Fin 16, A (ix2 j k) * B (ix2 k q)) + col (ix2 j (0 : Fin 1))) 0 := by
  rw [maximumf_apply, addf_apply, product_apply, Cert.Keepdims.broadcastTo_a1_ab_apply, broadcast_apply]
  have zero : (FloatOps.ofBits (F := Ideal) FTy.f32 0x00000000#32) = (0 : EReal) := Ideal.ofBits_zero_f32
  exact congrArg (max _) zero

/-- The body's stored value at the entry (j, q) of a block: two rectified affine layers in the column-wise arrangement,
    the inner one read down column q of the block. -/
theorem payload_apply (X : FVec Ideal S16x160000 .f32) (A1 : FVec Ideal S16x16 .f32) (c1 : FVec Ideal S16x1 .f32)
    (A2 : FVec Ideal S16x16 .f32) (c2 : FVec Ideal S16x1 .f32) (j : Fin 16) (q : Fin 160000) :
    k0_pay1 (F := Ideal) X A1 c1 A2 c2 (ix2 j q)
      = max ((∑ k : Fin 16, A2 (ix2 j k) * max ((∑ l : Fin 16, A1 (ix2 k l) * X (ix2 l q)) + c1 (ix2 k (0 : Fin 1))) 0)
          + c2 (ix2 j (0 : Fin 1))) 0 := by
  unfold k0_pay1
  simp only [shapeCast_self, layer_apply]

end Cert.Mlp.Body

end
-- ==== Proof.Blocks.lean ====
/-
  From the blocks to the region's output array.

  The region runs over 20 grid points. At point t it reads columns [160000 t, 160000 (t + 1)) of the transposed
  features (all 16 rows), the whole of both transposed weight matrices and of both bias columns, and writes back the
  same columns of its 16 × 3200000 output. What it writes at (j, q) of the block is the column-wise perceptron of column
  160000 t + q, so every block is the restriction of ONE function of the five arrays the region finds, and the 20
  blocks cover the output: the output array ends holding that function.
-/
import proofs.«170061_g52252572123261_cont_8to1_c_723_17_alg».proof.Proof.Gen.KernelIdeal.Frame
import proofs.«170061_g52252572123261_cont_8to1_c_723_17_alg».proof.Proof.Payload
import Idealize.ShloMosaic.Lib.Pipeline.Value
import Idealize.ShloMosaic.Lib.ValueIdx

noncomputable section

namespace Cert.Mlp.Region

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The column-wise perceptron of the arrays the region finds: transposed features X, transposed weights A1, A2,
    bias columns c1, c2. Entry (j, r) uses column r of X only. -/
def columnwise (X : S16x3200000.Idx → EReal) (A1 : S16x16.Idx → EReal) (c1 : S16x1.Idx → EReal)
    (A2 : S16x16.Idx → EReal) (c2 : S16x1.Idx → EReal) : S16x3200000.Idx → EReal := fun i =>
  max ((∑ k : Fin 16, A2 (ix2 (i 0) k) * max ((∑ l : Fin 16, A1 (ix2 k l) * X (ix2 l (i 1))) + c1 (ix2 k (0 : Fin 1))) 0)
    + c2 (ix2 (i 0) (0 : Fin 1))) 0

theorem columnwise_apply (X : S16x3200000.Idx → EReal) (A1 : S16x16.Idx → EReal) (c1 : S16x1.Idx → EReal)
    (A2 : S16x16.Idx → EReal) (c2 : S16x1.Idx → EReal) (j : Fin 16) (r : Fin 3200000) :
    columnwise X A1 c1 A2 c2 (ix2 j r)
      = max ((∑ k : Fin 16, A2 (ix2 j k) * max ((∑ l : Fin 16, A1 (ix2 k l) * X (ix2 l r)) + c1 (ix2 k (0 : Fin 1))) 0)
          + c2 (ix2 j (0 : Fin 1))) 0 := rfl

theorem zeros : (![0, 0] : Fin 2 → Nat) = fun _ => 0 := funext fun a => by fin_cases a <;> rfl

/-- Where each window's block sits at grid point t: the features' and the output's at block column t, row block 0;
    the weights' and the biases' always at the one block there is. -/
theorem block_positions : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- What point t writes back is block t of the column-wise perceptron of the arrays the region finds. -/
theorem written_back (c : Dev nD) (t : Fin cfg0.N) :
    (dats m 0 c).flushed 5 t = ((cfg0.win 5).blk t).view.read (Elt Ideal)
      (columnwise (V m c main_v0) (V m c main_v1) (V m c main_v3) (V m c main_v2) (V m c main_v4)) := by
  show (cfg0.win 5).cut (grid0.coords t) ((dats m 0 c).after 5 t) = _
  rw [after0_5]
  unfold out0_5
  rw [View.canon_unit_zero zeros]
  simp only [View.ld_unit_zero (S := S16x160000) zeros, View.ld_unit_zero (S := S16x16) zeros, View.ld_unit_zero (S := S16x1) zeros]
  obtain ⟨p00, p01, p10, p11, p20, p21, p30, p31, p40, p41, p50, p51⟩ := block_positions t
  have ht : t.val < 20 := Nat.lt_of_lt_of_eq t.isLt (show cfg0.N = 20 from N_0)
  funext y
  obtain ⟨j, q, rfl⟩ : ∃ (j : Fin 16) (q : Fin 160000), y = ix2 j q := ⟨y 0, y 1, eq_ix2 y⟩
  have hr : t.val * 160000 + q.val < 3200000 := by have := q.isLt; omega
  show k0_pay1 (F := Ideal) (iblk m c 0 t) (iblk m c 1 t) (iblk m c 2 t) (iblk m c 3 t) (iblk m c 4 t) (ix2 j q)
    = columnwise (V m c main_v0) (V m c main_v1) (V m c main_v3) (V m c main_v2) (V m c main_v4)
        (((cfg0.win 5).blk t).view.emb (ix2 j q))
  have eo : ((cfg0.win 5).blk t).view.emb (ix2 j q) = ix2 j (⟨t.val * 160000 + q.val, hr⟩ : Fin 3200000) := by
    funext a; apply Fin.ext
    match a with
    | ⟨0, _⟩ => show win0_5.index t (0 : Fin 2) * 16 + 1 * j.val = j.val; omega
    | ⟨1, _⟩ => show win0_5.index t (1 : Fin 2) * 160000 + 1 * q.val = t.val * 160000 + q.val; omega
  have e0 : ∀ l : Fin 16, iblk m c 0 t (ix2 l q) = V m c main_v0 (ix2 l (⟨t.val * 160000 + q.val, hr⟩ : Fin 3200000)) := fun l => by
    show V m c main_v0 (((cfg0.win 0).blk t).view.emb (ix2 l q)) = _
    refine congrArg (V m c main_v0) (funext fun a => Fin.ext ?_)
    match a with
    | ⟨0, _⟩ => show win0_0.index t (0 : Fin 2) * 16 + 1 * l.val = l.val; omega
    | ⟨1, _⟩ => show win0_0.index t (1 : Fin 2) * 160000 + 1 * q.val = t.val * 160000 + q.val; omega
  have e1 : ∀ k l : Fin 16, iblk m c 1 t (ix2 k l) = V m c main_v1 (ix2 k l) := fun k l => by
    show V m c main_v1 (((cfg0.win 1).blk t).view.emb (ix2 k l)) = _
    refine congrArg (V m c main_v1) (funext fun a => Fin.ext ?_)
    match a with
    | ⟨0, _⟩ => show win0_1.index t (0 : Fin 2) * 16 + 1 * k.val = k.val; omega
    | ⟨1, _⟩ => show win0_1.index t (1 : Fin 2) * 16 + 1 * l.val = l.val; omega
  have e2 : ∀ k : Fin 16, iblk m c 2 t (ix2 k (0 : Fin 1)) = V m c main_v3 (ix2 k (0 : Fin 1)) := fun k => by
    show V m c main_v3 (((cfg0.win 2).blk t).view.emb (ix2 k (0 : Fin 1))) = _
    refine congrArg (V m c main_v3) (funext fun a => Fin.ext ?_)
    match a with
    | ⟨0, _⟩ => show win0_2.index t (0 : Fin 2) * 16 + 1 * k.val = k.val; omega
    | ⟨1, _⟩ => show win0_2.index t (1 : Fin 2) * 1 + 1 * 0 = 0; omega
  have e3 : ∀ k : Fin 16, iblk m c 3 t (ix2 j k) = V m c main_v2 (ix2 j k) := fun k => by
    show V m c main_v2 (((cfg0.win 3).blk t).view.emb (ix2 j k)) = _
    refine congrArg (V m c main_v2) (funext fun a => Fin.ext ?_)
    match a with
    | ⟨0, _⟩ => show win0_3.index t (0 : Fin 2) * 16 + 1 * j.val = j.val; omega
    | ⟨1, _⟩ => show win0_3.index t (1 : Fin 2) * 16 + 1 * k.val = k.val; omega
  have e4 : iblk m c 4 t (ix2 j (0 : Fin 1)) = V m c main_v4 (ix2 j (0 : Fin 1)) := by
    show V m c main_v4 (((cfg0.win 4).blk t).view.emb (ix2 j (0 : Fin 1))) = _
    refine congrArg (V m c main_v4) (funext fun a => Fin.ext ?_)
    match a with
    | ⟨0, _⟩ => show win0_4.index t (0 : Fin 2) * 16 + 1 * j.val = j.val; omega
    | ⟨1, _⟩ => show win0_4.index t (1 : Fin 2) * 1 + 1 * 0 = 0; omega
  rw [eo, columnwise_apply]
  refine (Cert.Mlp.Body.payload_apply (iblk m c 0 t) (iblk m c 1 t) (iblk m c 2 t) (iblk m c 3 t) (iblk m c 4 t) j q).trans ?_
  simp only [e0, e1, e2, e3, e4]

/-- An index of the output array is in point t's block iff each coordinate is in the block's range on its axis. -/
theorem mem_block (t : Fin cfg0.N) (i : S16x3200000.Idx) :
    i ∈ ((cfg0.win 5).blk t).view.set ↔ ∀ a : Fin 2, win0_5.index t a * S16x160000.size a ≤ (i a).val
      ∧ (i a).val < win0_5.index t a * S16x160000.size a + S16x160000.size a := by
  show i ∈ ((View.whole main_v5).slice (win0_5.rect t)).set ↔ _
  rw [View.set_slice_whole, Rect.mem_set_unit]
  exact Iff.rfl

/-- Every index of the output array lies in the block of the point numbered by its column divided by 160000. -/
theorem covered (i : S16x3200000.Idx) :
    ∃ t : Fin cfg0.N, (cfg0.win 5).flush t = true ∧ i ∈ ((cfg0.win 5).blk t).view.set := by
  have hi0 : (i 0).val < 16 := (i 0).isLt
  have hi1 : (i 1).val < 3200000 := (i 1).isLt
  have hN : cfg0.N = 20 := N_0
  have hq : (i 1).val / 160000 < cfg0.N := by rw [hN]; omega
  obtain ⟨-, -, -, -, -, -, -, -, -, -, p50, p51⟩ := block_positions ⟨(i 1).val / 160000, hq⟩
  refine ⟨⟨(i 1).val / 160000, hq⟩, flush0_5 _, ?_⟩
  rw [mem_block]
  intro a
  match a with
  | ⟨0, _⟩ =>
    show win0_5.index ⟨(i 1).val / 160000, hq⟩ (0 : Fin 2) * 16 ≤ (i 0).val
      ∧ (i 0).val < win0_5.index ⟨(i 1).val / 160000, hq⟩ (0 : Fin 2) * 16 + 16
    omega
  | ⟨1, _⟩ =>
    show win0_5.index ⟨(i 1).val / 160000, hq⟩ (1 : Fin 2) * 160000 ≤ (i 1).val
      ∧ (i 1).val < win0_5.index ⟨(i 1).val / 160000, hq⟩ (1 : Fin 2) * 160000 + 160000
    have p : win0_5.index ⟨(i 1).val / 160000, hq⟩ (1 : Fin 2) = (i 1).val / 160000 := p51
    omega

/-- The region's output array after the last write-back: the column-wise perceptron of the arrays the region finds. -/
theorem output_array (c : Dev nD) :
    (dats m 0 c).arrAt 5 cfg0.N
      = columnwise (V m c main_v0) (V m c main_v1) (V m c main_v3) (V m c main_v2) (V m c main_v4) :=
  (dats m 0 c).arrAt_eq_of_cover 5 _ (fun t _ => written_back m c t) covered

end Cert.Mlp.Region

end
-- ==== Proof.HostSides.lean ====
/-
  The host operations around the kernel region.

  Before the region the program transposes the features and both weight matrices and casts each bias vector to a
  column; the region then finds those five arrays. After the region the program transposes the region's output array
  back: the program's result is the transpose of what the region's output array holds after the last write-back.
-/
import proofs.«170061_g52252572123261_cont_8to1_c_723_17_alg».proof.Proof.Gen.KernelIdeal.Frame
import Idealize.ShloMosaic.Lib.StableHlo.Run
import Idealize.ShloMosaic.PureOps.Ideal

noncomputable section

namespace Cert.Mlp.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region finds the features transposed. -/
theorem entry_features (c : Dev nD) :
    (V m c main_v0 : S16x3200000.Idx → EReal)
      = transpose S16x3200000 [1, 0] (m ((c : Thread nD τ).loc main_arg0)) transposes_S3200000x16_S16x3200000_1_0 := by
  show StableHlo.after hostOps0 (fun b => m (c, b)) (Proc.devRef .tc main_v0) = _
  after_results <;> rfl

/-- The region finds the first weight matrix transposed. -/
theorem entry_weights1 (c : Dev nD) :
    (V m c main_v1 : S16x16.Idx → EReal)
      = transpose S16x16 [1, 0] (m ((c : Thread nD τ).loc main_arg1)) transposes_S16x16_S16x16_1_0 := by
  show StableHlo.after hostOps0 (fun b => m (c, b)) (Proc.devRef .tc main_v1) = _
  after_results <;> rfl

/-- The region finds the second weight matrix transposed. -/
theorem entry_weights2 (c : Dev nD) :
    (V m c main_v2 : S16x16.Idx → EReal)
      = transpose S16x16 [1, 0] (m ((c : Thread nD τ).loc main_arg3)) transposes_S16x16_S16x16_1_0 := by
  show StableHlo.after hostOps0 (fun b => m (c, b)) (Proc.devRef .tc main_v2) = _
  after_results <;> rfl

/-- The region finds the first bias as a column. -/
theorem entry_bias1 (c : Dev nD) :
    (V m c main_v3 : S16x1.Idx → EReal)
      = shapeCast S16x1 (m ((c : Thread nD τ).loc main_arg2)) shapeCasts_S16_S16x1 := by
  show StableHlo.after hostOps0 (fun b => m (c, b)) (Proc.devRef .tc main_v3) = _
  after_results <;> rfl

/-- The region finds the second bias as a column. -/
theorem entry_bias2 (c : Dev nD) :
    (V m c main_v4 : S16x1.Idx → EReal)
      = shapeCast S16x1 (m ((c : Thread nD τ).loc main_arg4)) shapeCasts_S16_S16x1 := by
  show StableHlo.after hostOps0 (fun b => m (c, b)) (Proc.devRef .tc main_v4) = _
  after_results <;> rfl

/-- The program's result after the run: the transpose of the region's output array after the last write-back. -/
theorem result_after (c : Dev nD) :
    Pipeline.afterTail₀ cfgs (dats m) 0 (V0 m) [hostOps1] c main_v6
      = transpose S3200000x16 [1, 0] ((dats m 0 c).arrAt 5 cfg0.N) transposes_S16x3200000_S3200000x16_1_0 := by
  unfold Pipeline.afterTail₀
  show StableHlo.after hostOps1 _ (Proc.devRef .tc main_v6) = _
  after_results
  exact congrArg (fun A => transpose S3200000x16 [1, 0] A transposes_S16x3200000_S3200000x16_1_0)
    (Pipeline.withArrays_arr spec0 launch0.win.arr_inj c _ _ 5)

end Cert.Mlp.Host

end
-- ==== Proof.KernelValue.lean ====
/-
  The kernel program computes the perceptron.

  The region's output array holds the column-wise perceptron of the transposed features, the transposed weights and
  the bias columns; the program returns its transpose. Entry (e, j) of the result is therefore entry (j, e) of the
  column-wise form, in which the transposed arrays read the original ones with their two coordinates swapped and each
  bias column reads its vector: the column-wise arrangement of the perceptron of the program's five arguments at (e, j).
-/
import proofs.«170061_g52252572123261_cont_8to1_c_723_17_alg».proof.Proof.Blocks
import proofs.«170061_g52252572123261_cont_8to1_c_723_17_alg».proof.Proof.HostSides
import proofs.«170061_g52252572123261_cont_8to1_c_723_17_alg».proof.Proof.Spec
import proofs.«170061_g52252572123261_cont_8to1_c_723_17_alg».proof.Proof.LibKeepdims
import Idealize.ShloMosaic.Lib.ValueLayout

noncomputable section

namespace Cert.Mlp.Kernel

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- For any five arrays: transpose the features and the weights, cast the biases to columns, take the column-wise
    perceptron, transpose back — the result is the perceptron of the five arrays. -/
theorem transposed_columnwise (x : S3200000x16.Idx → EReal) (W1 : S16x16.Idx → EReal) (b1 : S16.Idx → EReal)
    (W2 : S16x16.Idx → EReal) (b2 : S16.Idx → EReal) :
    transpose S3200000x16 [1, 0]
        (Cert.Mlp.Region.columnwise (transpose S16x3200000 [1, 0] x transposes_S3200000x16_S16x3200000_1_0)
          (transpose S16x16 [1, 0] W1 transposes_S16x16_S16x16_1_0) (shapeCast S16x1 b1 shapeCasts_S16_S16x1)
          (transpose S16x16 [1, 0] W2 transposes_S16x16_S16x16_1_0) (shapeCast S16x1 b2 shapeCasts_S16_S16x1))
        transposes_S16x3200000_S3200000x16_1_0
      = Cert.Mlp.mlp x W1 b1 W2 b2 := by
  funext i
  obtain ⟨e, j, rfl⟩ : ∃ (e : Fin 3200000) (j : Fin 16), i = ix2 e j := ⟨i 0, i 1, eq_ix2 i⟩
  rw [transpose_ix2_apply, Cert.Mlp.Region.columnwise_apply]
  have tW2 : ∀ k : Fin 16, transpose S16x16 [1, 0] W2 transposes_S16x16_S16x16_1_0 (ix2 j k) = W2 (ix2 k j) :=
    fun k => transpose_ix2_apply W2 _ j k
  have tW1 : ∀ k l : Fin 16, transpose S16x16 [1, 0] W1 transposes_S16x16_S16x16_1_0 (ix2 k l) = W1 (ix2 l k) :=
    fun k l => transpose_ix2_apply W1 _ k l
  have tx : ∀ l : Fin 16, transpose S16x3200000 [1, 0] x transposes_S3200000x16_S16x3200000_1_0 (ix2 l e) = x (ix2 e l) :=
    fun l => transpose_ix2_apply x _ l e
  have cb1 : ∀ k : Fin 16, shapeCast S16x1 b1 shapeCasts_S16_S16x1 (ix2 k (0 : Fin 1)) = b1 (ix1 k) :=
    fun k => Cert.Keepdims.shapeCast_a_a1_apply b1 _ k 0
  have cb2 : shapeCast S16x1 b2 shapeCasts_S16_S16x1 (ix2 j (0 : Fin 1)) = b2 (ix1 j) :=
    Cert.Keepdims.shapeCast_a_a1_apply b2 _ j 0
  simp only [tW2, tW1, tx, cb1, cb2]
  exact Cert.Mlp.mlp_columnwise x W1 b1 W2 b2 e j

/-- The transpose of the column-wise perceptron of the arrays the region finds is the perceptron of the arguments. -/
theorem result_eq (c : Dev nD) :
    transpose S3200000x16 [1, 0]
        (Cert.Mlp.Region.columnwise (V m c main_v0) (V m c main_v1) (V m c main_v3) (V m c main_v2) (V m c main_v4))
        transposes_S16x3200000_S3200000x16_1_0
      = Cert.Mlp.mlp (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.Mlp.Host.entry_features, Cert.Mlp.Host.entry_weights1, Cert.Mlp.Host.entry_weights2,
    Cert.Mlp.Host.entry_bias1, Cert.Mlp.Host.entry_bias2]
  exact transposed_columnwise _ _ _ _ _

/-- Every weakly fair execution of the kernel program terminates with its result at the perceptron of its arguments
    and the arguments unchanged: the generated frame run, its result read through the transposition after the region
    and the region's output array. -/
theorem run : θ_run defs (onTc (τ := τ) (main (F := Ideal))) ⟨m, fun _ => 0, ρ⟩ fun r => ∀ c : Dev nD,
      r.2.mem ((c.tc : Thread nD τ).loc main_v6)
        = Cert.Mlp.mlp (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans
        ((Cert.Mlp.Host.result_after m c).trans
          ((congrArg (fun A => transpose S3200000x16 [1, 0] A transposes_S16x3200000_S3200000x16_1_0)
            (Cert.Mlp.Region.output_array m c)).trans (result_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Mlp.Kernel

end
-- ==== Proof.lean ====
/-
  The kernel applies a two-layer perceptron with rectifiers to every row of a 3200000 × 16 feature matrix,
      out (e, j) = max (∑ k, max (∑ l, x (e, l) · W1 (l, k) + b1 k) 0 · W2 (k, j) + b2 j) 0,
  and so does the reference. The kernel works on the transposed problem: it transposes the features and the weights,
  runs 20 blocks of 160000 columns each through two matrix products with the weights on the left, and transposes the
  result back; the reference multiplies with the weights on the right. Over the extended reals the two results are
  equal entry by entry because the product commutes (Proof/Spec.lean); no other law is needed, so the finiteness of the
  inputs is never used.

  Proof/RefIsSpec.lean reads the reference's run at an index; Proof/Payload.lean the kernel body at an index;
  Proof/Blocks.lean joins the 20 blocks into the region's output array; Proof/HostSides.lean reads the transpositions
  and bias casts around the region; Proof/KernelValue.lean puts the kernel side together. The three programs' runs
  (termination without fault, arguments unchanged) are the generated frames and the generated reference run; the
  idealized kernel is the kernel's own text (no rewrite was applied), so that conjunct is trivial.
-/
import proofs.«170061_g52252572123261_cont_8to1_c_723_17_alg».proof.Defs
import proofs.«170061_g52252572123261_cont_8to1_c_723_17_alg».proof.Proof.Gen.Kernel
import proofs.«170061_g52252572123261_cont_8to1_c_723_17_alg».proof.Proof.Gen.Kernel.Skeleton
import proofs.«170061_g52252572123261_cont_8to1_c_723_17_alg».proof.Proof.Gen.Kernel.Launch
import proofs.«170061_g52252572123261_cont_8to1_c_723_17_alg».proof.Proof.Gen.Kernel.Points
import proofs.«170061_g52252572123261_cont_8to1_c_723_17_alg».proof.Proof.Gen.Kernel.Frame
import proofs.«170061_g52252572123261_cont_8to1_c_723_17_alg».proof.Proof.Gen.KernelIdeal
import proofs.«170061_g52252572123261_cont_8to1_c_723_17_alg».proof.Proof.Gen.KernelIdeal.Skeleton
import proofs.«170061_g52252572123261_cont_8to1_c_723_17_alg».proof.Proof.Gen.KernelIdeal.Launch
import proofs.«170061_g52252572123261_cont_8to1_c_723_17_alg».proof.Proof.Gen.KernelIdeal.Points
import proofs.«170061_g52252572123261_cont_8to1_c_723_17_alg».proof.Proof.Gen.KernelIdeal.Frame
import proofs.«170061_g52252572123261_cont_8to1_c_723_17_alg».proof.Proof.Gen.ReferenceIdeal
import proofs.«170061_g52252572123261_cont_8to1_c_723_17_alg».proof.Proof.Gen.Pre_finite_inputs
import proofs.«170061_g52252572123261_cont_8to1_c_723_17_alg».proof.Proof.Gen.ReferenceIdeal.Run
import proofs.«170061_g52252572123261_cont_8to1_c_723_17_alg».proof.Proof.Gen.ReferenceIdeal.Read
import proofs.«170061_g52252572123261_cont_8to1_c_723_17_alg».proof.Proof.RefIsSpec
import proofs.«170061_g52252572123261_cont_8to1_c_723_17_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the perceptron of their arguments, and the arguments agree. -/
theorem algebraic : Cert.algebraic_KernelIdeal_ReferenceIdeal := by
  intro m ρ m' ρ' _ hagree
  refine ⟨_, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Mlp.Ref.last_stage_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
